-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x56x56x64 : Shape := ⟨4, ![8, 56, 56, 64]⟩
abbrev S64x128 : Shape := ⟨2, ![64, 128]⟩
abbrev S128 : Shape := ⟨1, ![128]⟩
abbrev S_ : Shape := ⟨0, ![]⟩

class Facts : Prop where
  bcast_S_S8x56x56x64 : S_.BroadcastsInDim S8x56x56x64 (![] : Fin 0 → Fin S8x56x56x64.rank)
  reducesTo_S8x56x56x64_S_d0_1_2_3 : S8x56x56x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x56x56x64 .f32) (main_arg1 : FVec F S64x128 .f32) (main_arg2 : FVec F S128 .f32) : IVec S_ 1 :=
  let main_v0 : FVec F S8x56x56x64 .f32 := Host.absf main_arg0
  let main_cst : FVec F S_ .f32 := constant S_ .f32 0x7F800000#32
  let main_v1 : FVec F S8x56x56x64 .f32 := broadcastInDim S8x56x56x64 ![] bcast_S_S8x56x56x64 main_cst
  let main_v2 : IVec S8x56x56x64 1 := cmpf .olt main_v0 main_v1
  let main_c : IVec S_ 1 := constantI S_ 1 1#1
  let main_v3 : IVec S_ 1 := (fun x v => Host.reduce IntOp.andi x v reducesTo_S8x56x56x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x56x56x64 : Shape := ⟨4, ![8, 56, 56, 64]⟩
abbrev S64x128 : Shape := ⟨2, ![64, 128]⟩
abbrev S128 : Shape := ⟨1, ![128]⟩
abbrev S25088x64 : Shape := ⟨2, ![25088, 64]⟩
abbrev S1x128 : Shape := ⟨2, ![1, 128]⟩
abbrev S25088x128 : Shape := ⟨2, ![25088, 128]⟩
abbrev S512x64 : Shape := ⟨2, ![512, 64]⟩
abbrev S512x128 : Shape := ⟨2, ![512, 128]⟩
abbrev S512x1 : Shape := ⟨2, ![512, 1]⟩
abbrev S8x3136x128 : Shape := ⟨3, ![8, 3136, 128]⟩

abbrev nBuf : Space → Nat
  | .hbm => 7
  | .vmem => 6
  | .smem => 0
  | _ => 0

abbrev bufTy : (tb : Table) → Fin (tcTables nBuf tb) → BufTy
  | .hbm, ⟨0, _⟩ => ⟨S8x56x56x64, .f32⟩
  | .hbm, ⟨1, _⟩ => ⟨S64x128, .f32⟩
  | .hbm, ⟨2, _⟩ => ⟨S128, .f32⟩
  | .hbm, ⟨3, _⟩ => ⟨S25088x64, .f32⟩
  | .hbm, ⟨4, _⟩ => ⟨S1x128, .f32⟩
  | .hbm, ⟨5, _⟩ => ⟨S25088x128, .f32⟩
  | .hbm, ⟨6, _⟩ => ⟨S8x3136x128, .f32⟩
  | .local _ .vmem, ⟨0, _⟩ => ⟨S512x64, .f32⟩
  | .local _ .vmem, ⟨1, _⟩ => ⟨S512x64, .f32⟩
  | .local _ .vmem, ⟨2, _⟩ => ⟨S64x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S8x56x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x56x56x64_S25088x64 : S8x56x56x64.ShapeCasts S25088x64
  shapeCasts_S128_S1x128 : S128.ShapeCasts S1x128
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S512x64_o0_0_S512x1 : S512x64.Slices ![0, 0] S512x1
  slices_S64x128_o0_0_S1x128 : S64x128.Slices ![0, 0] S1x128
  broadcasts_S512x1_S512x128 : S512x1.Broadcasts S512x128
  broadcasts_S1x128_S512x128 : S1x128.Broadcasts S512x128
  slices_S512x64_o0_1_S512x1 : S512x64.Slices ![0, 1] S512x1
  slices_S64x128_o1_0_S1x128 : S64x128.Slices ![1, 0] S1x128
  slices_S512x64_o0_2_S512x1 : S512x64.Slices ![0, 2] S512x1
  slices_S64x128_o2_0_S1x128 : S64x128.Slices ![2, 0] S1x128
  slices_S512x64_o0_3_S512x1 : S512x64.Slices ![0, 3] S512x1
  slices_S64x128_o3_0_S1x128 : S64x128.Slices ![3, 0] S1x128
  slices_S512x64_o0_4_S512x1 : S512x64.Slices ![0, 4] S512x1
  slices_S64x128_o4_0_S1x128 : S64x128.Slices ![4, 0] S1x128
  slices_S512x64_o0_5_S512x1 : S512x64.Slices ![0, 5] S512x1
  slices_S64x128_o5_0_S1x128 : S64x128.Slices ![5, 0] S1x128
  slices_S512x64_o0_6_S512x1 : S512x64.Slices ![0, 6] S512x1
  slices_S64x128_o6_0_S1x128 : S64x128.Slices ![6, 0] S1x128
  slices_S512x64_o0_7_S512x1 : S512x64.Slices ![0, 7] S512x1
  slices_S64x128_o7_0_S1x128 : S64x128.Slices ![7, 0] S1x128
  slices_S512x64_o0_8_S512x1 : S512x64.Slices ![0, 8] S512x1
  slices_S64x128_o8_0_S1x128 : S64x128.Slices ![8, 0] S1x128
  slices_S512x64_o0_9_S512x1 : S512x64.Slices ![0, 9] S512x1
  slices_S64x128_o9_0_S1x128 : S64x128.Slices ![9, 0] S1x128
  slices_S512x64_o0_10_S512x1 : S512x64.Slices ![0, 10] S512x1
  slices_S64x128_o10_0_S1x128 : S64x128.Slices ![10, 0] S1x128
  slices_S512x64_o0_11_S512x1 : S512x64.Slices ![0, 11] S512x1
  slices_S64x128_o11_0_S1x128 : S64x128.Slices ![11, 0] S1x128
  slices_S512x64_o0_12_S512x1 : S512x64.Slices ![0, 12] S512x1
  slices_S64x128_o12_0_S1x128 : S64x128.Slices ![12, 0] S1x128
  slices_S512x64_o0_13_S512x1 : S512x64.Slices ![0, 13] S512x1
  slices_S64x128_o13_0_S1x128 : S64x128.Slices ![13, 0] S1x128
  slices_S512x64_o0_14_S512x1 : S512x64.Slices ![0, 14] S512x1
  slices_S64x128_o14_0_S1x128 : S64x128.Slices ![14, 0] S1x128
  slices_S512x64_o0_15_S512x1 : S512x64.Slices ![0, 15] S512x1
  slices_S64x128_o15_0_S1x128 : S64x128.Slices ![15, 0] S1x128
  slices_S512x64_o0_16_S512x1 : S512x64.Slices ![0, 16] S512x1
  slices_S64x128_o16_0_S1x128 : S64x128.Slices ![16, 0] S1x128
  slices_S512x64_o0_17_S512x1 : S512x64.Slices ![0, 17] S512x1
  slices_S64x128_o17_0_S1x128 : S64x128.Slices ![17, 0] S1x128
  slices_S512x64_o0_18_S512x1 : S512x64.Slices ![0, 18] S512x1
  slices_S64x128_o18_0_S1x128 : S64x128.Slices ![18, 0] S1x128
  slices_S512x64_o0_19_S512x1 : S512x64.Slices ![0, 19] S512x1
  slices_S64x128_o19_0_S1x128 : S64x128.Slices ![19, 0] S1x128
  slices_S512x64_o0_20_S512x1 : S512x64.Slices ![0, 20] S512x1
  slices_S64x128_o20_0_S1x128 : S64x128.Slices ![20, 0] S1x128
  slices_S512x64_o0_21_S512x1 : S512x64.Slices ![0, 21] S512x1
  slices_S64x128_o21_0_S1x128 : S64x128.Slices ![21, 0] S1x128
  slices_S512x64_o0_22_S512x1 : S512x64.Slices ![0, 22] S512x1
  slices_S64x128_o22_0_S1x128 : S64x128.Slices ![22, 0] S1x128
  slices_S512x64_o0_23_S512x1 : S512x64.Slices ![0, 23] S512x1
  slices_S64x128_o23_0_S1x128 : S64x128.Slices ![23, 0] S1x128
  slices_S512x64_o0_24_S512x1 : S512x64.Slices ![0, 24] S512x1
  slices_S64x128_o24_0_S1x128 : S64x128.Slices ![24, 0] S1x128
  slices_S512x64_o0_25_S512x1 : S512x64.Slices ![0, 25] S512x1
  slices_S64x128_o25_0_S1x128 : S64x128.Slices ![25, 0] S1x128
  slices_S512x64_o0_26_S512x1 : S512x64.Slices ![0, 26] S512x1
  slices_S64x128_o26_0_S1x128 : S64x128.Slices ![26, 0] S1x128
  slices_S512x64_o0_27_S512x1 : S512x64.Slices ![0, 27] S512x1
  slices_S64x128_o27_0_S1x128 : S64x128.Slices ![27, 0] S1x128
  slices_S512x64_o0_28_S512x1 : S512x64.Slices ![0, 28] S512x1
  slices_S64x128_o28_0_S1x128 : S64x128.Slices ![28, 0] S1x128
  slices_S512x64_o0_29_S512x1 : S512x64.Slices ![0, 29] S512x1
  slices_S64x128_o29_0_S1x128 : S64x128.Slices ![29, 0] S1x128
  slices_S512x64_o0_30_S512x1 : S512x64.Slices ![0, 30] S512x1
  slices_S64x128_o30_0_S1x128 : S64x128.Slices ![30, 0] S1x128
  slices_S512x64_o0_31_S512x1 : S512x64.Slices ![0, 31] S512x1
  slices_S64x128_o31_0_S1x128 : S64x128.Slices ![31, 0] S1x128
  slices_S512x64_o0_32_S512x1 : S512x64.Slices ![0, 32] S512x1
  slices_S64x128_o32_0_S1x128 : S64x128.Slices ![32, 0] S1x128
  slices_S512x64_o0_33_S512x1 : S512x64.Slices ![0, 33] S512x1
  slices_S64x128_o33_0_S1x128 : S64x128.Slices ![33, 0] S1x128
  slices_S512x64_o0_34_S512x1 : S512x64.Slices ![0, 34] S512x1
  slices_S64x128_o34_0_S1x128 : S64x128.Slices ![34, 0] S1x128
  slices_S512x64_o0_35_S512x1 : S512x64.Slices ![0, 35] S512x1
  slices_S64x128_o35_0_S1x128 : S64x128.Slices ![35, 0] S1x128
  slices_S512x64_o0_36_S512x1 : S512x64.Slices ![0, 36] S512x1
  slices_S64x128_o36_0_S1x128 : S64x128.Slices ![36, 0] S1x128
  slices_S512x64_o0_37_S512x1 : S512x64.Slices ![0, 37] S512x1
  slices_S64x128_o37_0_S1x128 : S64x128.Slices ![37, 0] S1x128
  slices_S512x64_o0_38_S512x1 : S512x64.Slices ![0, 38] S512x1
  slices_S64x128_o38_0_S1x128 : S64x128.Slices ![38, 0] S1x128
  slices_S512x64_o0_39_S512x1 : S512x64.Slices ![0, 39] S512x1
  slices_S64x128_o39_0_S1x128 : S64x128.Slices ![39, 0] S1x128
  slices_S512x64_o0_40_S512x1 : S512x64.Slices ![0, 40] S512x1
  slices_S64x128_o40_0_S1x128 : S64x128.Slices ![40, 0] S1x128
  slices_S512x64_o0_41_S512x1 : S512x64.Slices ![0, 41] S512x1
  slices_S64x128_o41_0_S1x128 : S64x128.Slices ![41, 0] S1x128
  slices_S512x64_o0_42_S512x1 : S512x64.Slices ![0, 42] S512x1
  slices_S64x128_o42_0_S1x128 : S64x128.Slices ![42, 0] S1x128
  slices_S512x64_o0_43_S512x1 : S512x64.Slices ![0, 43] S512x1
  slices_S64x128_o43_0_S1x128 : S64x128.Slices ![43, 0] S1x128
  slices_S512x64_o0_44_S512x1 : S512x64.Slices ![0, 44] S512x1
  slices_S64x128_o44_0_S1x128 : S64x128.Slices ![44, 0] S1x128
  slices_S512x64_o0_45_S512x1 : S512x64.Slices ![0, 45] S512x1
  slices_S64x128_o45_0_S1x128 : S64x128.Slices ![45, 0] S1x128
  slices_S512x64_o0_46_S512x1 : S512x64.Slices ![0, 46] S512x1
  slices_S64x128_o46_0_S1x128 : S64x128.Slices ![46, 0] S1x128
  slices_S512x64_o0_47_S512x1 : S512x64.Slices ![0, 47] S512x1
  slices_S64x128_o47_0_S1x128 : S64x128.Slices ![47, 0] S1x128
  slices_S512x64_o0_48_S512x1 : S512x64.Slices ![0, 48] S512x1
  slices_S64x128_o48_0_S1x128 : S64x128.Slices ![48, 0] S1x128
  slices_S512x64_o0_49_S512x1 : S512x64.Slices ![0, 49] S512x1
  slices_S64x128_o49_0_S1x128 : S64x128.Slices ![49, 0] S1x128
  slices_S512x64_o0_50_S512x1 : S512x64.Slices ![0, 50] S512x1
  slices_S64x128_o50_0_S1x128 : S64x128.Slices ![50, 0] S1x128
  slices_S512x64_o0_51_S512x1 : S512x64.Slices ![0, 51] S512x1
  slices_S64x128_o51_0_S1x128 : S64x128.Slices ![51, 0] S1x128
  slices_S512x64_o0_52_S512x1 : S512x64.Slices ![0, 52] S512x1
  slices_S64x128_o52_0_S1x128 : S64x128.Slices ![52, 0] S1x128
  slices_S512x64_o0_53_S512x1 : S512x64.Slices ![0, 53] S512x1
  slices_S64x128_o53_0_S1x128 : S64x128.Slices ![53, 0] S1x128
  slices_S512x64_o0_54_S512x1 : S512x64.Slices ![0, 54] S512x1
  slices_S64x128_o54_0_S1x128 : S64x128.Slices ![54, 0] S1x128
  slices_S512x64_o0_55_S512x1 : S512x64.Slices ![0, 55] S512x1
  slices_S64x128_o55_0_S1x128 : S64x128.Slices ![55, 0] S1x128
  slices_S512x64_o0_56_S512x1 : S512x64.Slices ![0, 56] S512x1
  slices_S64x128_o56_0_S1x128 : S64x128.Slices ![56, 0] S1x128
  slices_S512x64_o0_57_S512x1 : S512x64.Slices ![0, 57] S512x1
  slices_S64x128_o57_0_S1x128 : S64x128.Slices ![57, 0] S1x128
  slices_S512x64_o0_58_S512x1 : S512x64.Slices ![0, 58] S512x1
  slices_S64x128_o58_0_S1x128 : S64x128.Slices ![58, 0] S1x128
  slices_S512x64_o0_59_S512x1 : S512x64.Slices ![0, 59] S512x1
  slices_S64x128_o59_0_S1x128 : S64x128.Slices ![59, 0] S1x128
  slices_S512x64_o0_60_S512x1 : S512x64.Slices ![0, 60] S512x1
  slices_S64x128_o60_0_S1x128 : S64x128.Slices ![60, 0] S1x128
  slices_S512x64_o0_61_S512x1 : S512x64.Slices ![0, 61] S512x1
  slices_S64x128_o61_0_S1x128 : S64x128.Slices ![61, 0] S1x128
  slices_S512x64_o0_62_S512x1 : S512x64.Slices ![0, 62] S512x1
  slices_S64x128_o62_0_S1x128 : S64x128.Slices ![62, 0] S1x128
  slices_S512x64_o0_63_S512x1 : S512x64.Slices ![0, 63] S512x1
  slices_S64x128_o63_0_S1x128 : S64x128.Slices ![63, 0] S1x128
  inb_S512x128_S512x128_0_0 : ∀ a, (![0, 0] : Fin 2 → Nat) a + S512x128.size a ≤ S512x128.size a
  h_S512x128 : 0 < S512x128.numel
  shapeCasts_S25088x128_S8x3136x128 : S25088x128.ShapeCasts S8x3136x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S25088x64.size a
  hwx0_0 : ∀ i : grid0.Coords, EltTy.bits .f32 = 32 ∨ (Rect.block (s := S25088x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S25088x128.size a
  hwx0_3 : ∀ i : grid0.Coords, EltTy.bits .f32 = 32 ∨ (Rect.block (s := S25088x128) S512x128.size (cc0_transform_3 i) (hinb0_3 i)).WholeWords (EltTy.packing .f32)

variable [Facts₀]

abbrev win0_0 : Pipeline.Window sig grid0 :=
  Pipeline.Window.ofSpec (Memref.whole main_v0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x56x56x64 : Shape := ⟨4, ![8, 56, 56, 64]⟩
abbrev S64x128 : Shape := ⟨2, ![64, 128]⟩
abbrev S128 : Shape := ⟨1, ![128]⟩
abbrev S8x3136x64 : Shape := ⟨3, ![8, 3136, 64]⟩
abbrev S8x3136x64x1 : Shape := ⟨4, ![8, 3136, 64, 1]⟩
abbrev S1x1x64x128 : Shape := ⟨4, ![1, 1, 64, 128]⟩
abbrev S8x3136x64x128 : Shape := ⟨4, ![8, 3136, 64, 128]⟩
abbrev S_ : Shape := ⟨0, ![]⟩
abbrev S8x3136x128 : Shape := ⟨3, ![8, 3136, 128]⟩
abbrev S1x1x128 : Shape := ⟨3, ![1, 1, 128]⟩

abbrev nBuf : Space → Nat
  | .hbm => 15
  | .vmem => 0
  | .smem => 0
  | _ => 0

abbrev bufTy : (tb : Table) → Fin (tcTables nBuf tb) → BufTy
  | .hbm, ⟨0, _⟩ => ⟨S8x56x56x64, .f32⟩
  | .hbm, ⟨1, _⟩ => ⟨S64x128, .f32⟩
  | .hbm, ⟨2, _⟩ => ⟨S128, .f32⟩
  | .hbm, ⟨3, _⟩ => ⟨S8x3136x64, .f32⟩
  | .hbm, ⟨4, _⟩ => ⟨S8x3136x64x1, .f32⟩
  | .hbm, ⟨5, _⟩ => ⟨S1x1x64x128, .f32⟩
  | .hbm, ⟨6, _⟩ => ⟨S8x3136x64x128, .f32⟩
  | .hbm, ⟨7, _⟩ => ⟨S8x3136x64x128, .f32⟩
  | .hbm, ⟨8, _⟩ => ⟨S8x3136x64x128, .f32⟩
  | .hbm, ⟨9, _⟩ => ⟨S8x3136x64x128, .f32⟩
  | .hbm, ⟨10, _⟩ => ⟨S_, .f32⟩
  | .hbm, ⟨11, _⟩ => ⟨S8x3136x128, .f32⟩
  | .hbm, ⟨12, _⟩ => ⟨S1x1x128, .f32⟩
  | .hbm, ⟨13, _⟩ => ⟨S8x3136x128, .f32⟩
  | .hbm, ⟨14, _⟩ => ⟨S8x3136x128, .f32⟩
  | _, _ => ⟨S8x56x56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S8x56x56x64_S8x3136x64 : S8x56x56x64.ShapeCasts S8x3136x64
  bcast_S8x3136x64_S8x3136x64x1_0_1_2 : S8x3136x64.BroadcastsInDim S8x3136x64x1 (![0, 1, 2] : Fin 3 → Fin S8x3136x64x1.rank)
  bcast_S64x128_S1x1x64x128_2_3 : S64x128.BroadcastsInDim S1x1x64x128 (![2, 3] : Fin 2 → Fin S1x1x64x128.rank)
  bcast_S8x3136x64x1_S8x3136x64x128_0_1_2_3 : S8x3136x64x1.BroadcastsInDim S8x3136x64x128 (![0, 1, 2, 3] : Fin 4 → Fin S8x3136x64x128.rank)
  bcast_S1x1x64x128_S8x3136x64x128_0_1_2_3 : S1x1x64x128.BroadcastsInDim S8x3136x64x128 (![0, 1, 2, 3] : Fin 4 → Fin S8x3136x64x128.rank)
  reducesTo_S8x3136x64x128_S8x3136x128_d2 : S8x3136x64x128.ReducesTo [2] S8x3136x128
  h_S_ : 0 < S_.numel
  bcast_S128_S1x1x128_2 : S128.BroadcastsInDim S1x1x128 (![2] : Fin 1 → Fin S1x1x128.rank)
  bcast_S1x1x128_S8x3136x128_0_1_2 : S1x1x128.BroadcastsInDim S8x3136x128 (![0, 1, 2] : Fin 3 → Fin S8x3136x128.rank)

variable [Facts₀]

class Facts : Prop extends Facts₀ where

variable [Facts]
-- ==== Proof.L1Spec.lean ====
/-
  The L1 distance layer as a function of its arguments, over the extended reals.

  For a row `r` of the flattened input `x : [R, 64]`, an output channel `o`, weights `w : [64, 128]` and a bias row
  `b : [1, 128]`, the entry is  Σ_{k < 64} |x r k − w k o|  +  b 0 o,  where |t| is `max t (−t)` (the absolute value both
  programs use on the extended reals).  `rows` is that function on an [R, 64] input; `result` is the same function on
  the NHWC input [8, 56, 56, 64], read through its flattening to [8, 3136, 64], as an [8, 3136, 128] array.
-/
import Idealize.ShloMosaic.PureOps.Ideal
import Idealize.ShloMosaic.Lib.ValueIdx

noncomputable section

namespace Cert.L1

open Idealize.ShloMosaic Idealize.ShloMosaic.ValueIdx

/-- |a − b| on the extended reals. -/
def absDiff (a b : EReal) : EReal := max (a - b) (-(a - b))

/-- Entry (r, o) of the layer on an input of `R` rows: the sum over the 64 input channels of the distances between
    `x r k` and `w k o`, plus the bias of channel `o`. -/
def entry {R : Nat} (x : (⟨2, ![R, 64]⟩ : Shape).Idx → EReal) (w : (⟨2, ![64, 128]⟩ : Shape).Idx → EReal)
    (b : (⟨2, ![1, 128]⟩ : Shape).Idx → EReal) (r : Fin R) (o : Fin 128) : EReal :=
  (∑ k : Fin 64, absDiff (x (ix2 r k)) (w (ix2 k o))) + b (ix2 (0 : Fin 1) o)

/-- The layer on an input of `R` rows, as an [R, 128] array. -/
def rows {R : Nat} (x : (⟨2, ![R, 64]⟩ : Shape).Idx → EReal) (w : (⟨2, ![64, 128]⟩ : Shape).Idx → EReal)
    (b : (⟨2, ![1, 128]⟩ : Shape).Idx → EReal) : (⟨2, ![R, 128]⟩ : Shape).Idx → EReal :=
  fun i => entry x w b (i 0) (i 1)

theorem rows_ix2 {R : Nat} (x : (⟨2, ![R, 64]⟩ : Shape).Idx → EReal) (w : (⟨2, ![64, 128]⟩ : Shape).Idx → EReal)
    (b : (⟨2, ![1, 128]⟩ : Shape).Idx → EReal) (r : Fin R) (o : Fin 128) : rows x w b (ix2 r o) = entry x w b r o := rfl

/-- [8, 56, 56, 64] and [8, 3136, 64] have the same number of elements. -/
theorem flat : (⟨4, ![8, 56, 56, 64]⟩ : Shape).ShapeCasts ⟨3, ![8, 3136, 64]⟩ := by decide

/-- The layer on the NHWC input: entry (n, s, o) sums, over the 64 channels `k`, the distances between the input at
    image `n`, flattened spatial position `s`, channel `k` and `w k o`, and adds the bias `b o`. -/
def result (x : (⟨4, ![8, 56, 56, 64]⟩ : Shape).Idx → EReal) (w : (⟨2, ![64, 128]⟩ : Shape).Idx → EReal)
    (b : (⟨1, ![128]⟩ : Shape).Idx → EReal) : (⟨3, ![8, 3136, 128]⟩ : Shape).Idx → EReal :=
  fun i => (∑ k : Fin 64, absDiff (shapeCast (⟨3, ![8, 3136, 64]⟩ : Shape) x flat (ix3 (i 0) (i 1) k)) (w (ix2 k (i 2))))
    + b (ix1 (i 2))

end Cert.L1

end
-- ==== Proof.ReferenceValue.lean ====
/-
  The reference computes the layer: its result array, read one host operation at a time, is `L1.result` of its three
  arguments.  Entry (n, s, o) of the reference is the host sum, over the reduced channel axis `k`, of
  |x'[n, s, k] − w[k, o]| — `x'` the input flattened to [8, 3136, 64], the two broadcasts reading `x'` at (n, s, k) and `w`
  at (k, o) — started from the constant zero, plus the bias broadcast, which reads `b` at `o`.
-/
import proofs.«105297_j12043088298091_2_alg».proof.Proof.Gen.ReferenceIdeal.Read
import proofs.«105297_j12043088298091_2_alg».proof.Proof.L1Spec
import Idealize.ShloMosaic.Lib.ValueIdx
import Idealize.ShloMosaic.PureOps.Ideal.Laws

noncomputable section

namespace Cert.ReferenceIdeal.Hand

open Cert.ReferenceIdeal Cert.ReferenceIdeal.Read Idealize.ShloMosaic Idealize.ShloMosaic.ValueIdx Cert.L1

/-- Through the two broadcasts of the flattened input, term `k` of the sum at (n, s, o) reads it at (n, s, k). -/
theorem idx_input (i : S8x3136x128.Idx) (k : Fin 64) :
    idx_main_v1 (idx_main_v3 (idx_main_v7 i k)) = ix3 (i 0) (i 1) k :=
  funext fun a => Fin.ext (by match a with | ⟨0, _⟩ => rfl | ⟨1, _⟩ => rfl | ⟨2, _⟩ => rfl)

/-- Through the two broadcasts of the weights, term `k` of the sum at (n, s, o) reads them at (k, o). -/
theorem idx_weight (i : S8x3136x128.Idx) (k : Fin 64) :
    idx_main_v2 (idx_main_v4 (idx_main_v7 i k)) = ix2 k (i 2) :=
  funext fun a => Fin.ext (by match a with | ⟨0, _⟩ => rfl | ⟨1, _⟩ => rfl)

/-- Through its two broadcasts the bias is read at the output channel. -/
theorem idx_bias (i : S8x3136x128.Idx) : idx_main_v8 (idx_main_v9 i) = ix1 (i 2) :=
  funext fun a => Fin.ext (by match a with | ⟨0, _⟩ => rfl)

/-- The reference's result is the layer of its arguments. -/
theorem reference_eq (x0 : (⟨S8x56x56x64, .f32⟩ : BufTy).Contents (Elt Ideal)) (x1 : (⟨S64x128, .f32⟩ : BufTy).Contents (Elt Ideal))
    (x2 : (⟨S128, .f32⟩ : BufTy).Contents (Elt Ideal)) :
    val_main_v10 (F := Ideal) x0 x1 x2 = result x0 x1 x2 := by
  funext i
  rw [val_main_v10_apply, val_main_v7_apply, val_main_v9_apply, val_main_v8_apply]
  simp only [val_main_v6_apply, val_main_v5_apply, val_main_v3_apply, val_main_v1_apply, val_main_v4_apply,
    val_main_v2_apply, val_main_cst_apply, idx_input, idx_weight, idx_bias]
  rw [show (FloatOps.ofBits (F := Ideal) .f32 0x00000000#32) = (0 : EReal) from Ideal.ofBits_zero_f32, zero_add]
  rfl

end Cert.ReferenceIdeal.Hand

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.BlockValue.lean ====
/-
  What the kernel body leaves in its output block, entry by entry.

  The body keeps a [512, 128] accumulator that starts at zero and, for each of the 64 input channels `k` in turn, adds
  |x[:, k] − w[k, :]| — column `k` of the input block broadcast along the lanes, row `k` of the weights broadcast along
  the sublanes — and finally adds the bias row broadcast along the sublanes.  Read at entry (p, q) every one of those
  operations is pointwise or reads one entry of its operand, so the stored value at (p, q) is
  0 + |x p 0 − w 0 q| + … + |x p 63 − w 63 q| + b 0 q,  the running sum in channel order; and a running sum of 64 terms
  from zero is the sum over `Fin 64` peeled from its last term down.  That is the layer's entry (p, q) on the block.
-/
import proofs.«105297_j12043088298091_2_alg».proof.Proof.Gen.KernelIdeal.Frame
import proofs.«105297_j12043088298091_2_alg».proof.Proof.LibRank2Layout
import proofs.«105297_j12043088298091_2_alg».proof.Proof.L1Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.Rank2 Cert.L1

theorem hz : (![0, 0] : Fin 2 → Nat) = fun _ => 0 := funext fun a => by fin_cases a <;> rfl

/-- The absolute value of a vector at an index: `max t (−t)` of the entry. -/
theorem absf_apply {s : Shape} {φ : FTy} (a : FVec Ideal s φ) (i : s.Idx) : absf a i = max (a i) (-(a i)) := rfl

/-- Entry (p, q) of what the body stores is the layer's entry (p, q) of the three loaded blocks. -/
theorem body_apply (x0 : Vec Ideal S512x64 .f32) (x1 : Vec Ideal S64x128 .f32) (x2 : Vec Ideal S1x128 .f32) (p : Fin 512) (q : Fin 128) :
    out0_3 x0 x1 x2 (ix2 p q) = entry x0 x1 x2 p q := by
  unfold out0_3
  rw [View.canon_unit_zero hz]
  simp only [View.ld_unit_zero (S := S512x64) hz, View.ld_unit_zero (S := S64x128) hz, View.ld_unit_zero (S := S1x128) hz]
  simp only [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19]
  -- every operation read at (p, q): the running sum of the 64 distances from the zero word, plus the bias entry
  simp only [shapeCast_self, addf_apply, subf_apply, absf_apply, bcastCol_apply, bcastRow_apply, sliceCol_apply, sliceRow_apply, broadcast_apply]
  unfold entry absDiff
  -- the sum over the 64 channels, peeled from the last channel down, is the same running sum from zero
  simp only [Fin.sum_univ_castSucc, Fin.sum_univ_zero]
  rw [show (Scalar.ofBits (F := Ideal) .f32 0x00000000#32) = (0 : EReal) from Ideal.ofBits_zero_f32]
  rfl

/-- The stored block is the layer of the three loaded blocks. -/
theorem out_eq (x0 : Vec Ideal S512x64 .f32) (x1 : Vec Ideal S64x128 .f32) (x2 : Vec Ideal S1x128 .f32) :
    out0_3 x0 x1 x2 = rows (R := 512) x0 x1 x2 := by
  funext j
  obtain ⟨p, q, rfl⟩ : ∃ (p : Fin 512) (q : Fin 128), j = ix2 p q := ⟨j 0, j 1, eq_ix2 j⟩
  exact body_apply x0 x1 x2 p q

/-- A block of the layer is the layer of the whole input read at the block's rows: if the loaded input block `x0`
    is rows `512 n …` of `X`, the loaded weights are `W` and the loaded bias row is `B`, then the stored block at `j` is
    the layer of `X`, `W`, `B` at row `512 n + j 0`, channel `j 1`. -/
theorem rows_of_block (x0 : Vec Ideal S512x64 .f32) (x1 : Vec Ideal S64x128 .f32) (x2 : Vec Ideal S1x128 .f32)
    (X : S25088x64.Idx → EReal) (W : S64x128.Idx → EReal) (B : S1x128.Idx → EReal) (n : Nat)
    (hx : ∀ (y : S512x64.Idx) (k : S25088x64.Idx), (k 0).val = 512 * n + (y 0).val → (k 1).val = (y 1).val → x0 y = X k)
    (hw : x1 = W) (hb : x2 = B)
    (j : S512x128.Idx) (i : S25088x128.Idx) (hi0 : (i 0).val = 512 * n + (j 0).val) (hi1 : (i 1).val = (j 1).val) :
    out0_3 x0 x1 x2 j = rows (R := 25088) X W B i := by
  subst hw hb
  obtain ⟨p, q, rfl⟩ : ∃ (p : Fin 512) (q : Fin 128), j = ix2 p q := ⟨j 0, j 1, eq_ix2 j⟩
  obtain ⟨r, o, rfl⟩ : ∃ (r : Fin 25088) (o : Fin 128), i = ix2 r o := ⟨i 0, i 1, eq_ix2 i⟩
  have hr : r.val = 512 * n + p.val := hi0
  obtain rfl : o = q := Fin.ext hi1
  rw [body_apply, rows_ix2]
  unfold entry
  refine congrArg (· + x2 (ix2 (0 : Fin 1) o)) (Finset.sum_congr rfl fun k _ => ?_)
  rw [hx (ix2 p k) (ix2 r k) hr rfl]

end Cert.KernelIdeal.Body

end
-- ==== Proof.ArrayValue.lean ====
/-
  From blocks to the array: after the run the kernel's [25088, 128] output array is the layer of the arrays the region
  finds.

  The grid has 49 points; point `t` stages rows `512 t … 512 t + 511` of the flattened input (block index (t, 0)), the
  whole weights and the whole bias row (block index (0, 0) at every point), and writes back rows `512 t …` of the output
  (block index (t, 0)).  So what point `t` writes back is block `t` of ONE function of the staged arrays, the layer
  `L1.rows`; every output row `r` lies in the block of point `r / 512`; hence the array ends holding that function.
-/
import proofs.«105297_j12043088298091_2_alg».proof.Proof.Gen.KernelIdeal.Frame
import proofs.«105297_j12043088298091_2_alg».proof.Proof.BlockValue
import proofs.«105297_j12043088298091_2_alg».proof.Proof.L1Spec
import Idealize.ShloMosaic.Lib.Pipeline.Value
import Idealize.ShloMosaic.Lib.ValueIdx

noncomputable section

namespace Cert.KernelIdeal.Arr

open Cert.KernelIdeal Cert.KernelIdeal.Gen Cert.KernelIdeal.Body Idealize.ShloMosaic Idealize.ShloMosaic.TcCoe Idealize.SL.Sem
open Idealize.ShloMosaic.ValueIdx Cert.L1
open Idealize.ShloMosaic.Pipeline (Dat)

variable (m : (ℓ : Loc nD τ sig) → Buf (Elt Ideal) ℓ)

/-- The four windows' block indices at point `t`, decided over the 49 points: the input and the output move with the
    point along the rows, the weights and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `512 t …` of the flattened input as the region finds it. -/
theorem xblock_apply (c : Dev nD) (t : Fin cfg0.N) (y : S512x64.Idx) (k : S25088x64.Idx)
    (hk0 : (k 0).val = 512 * t.val + (y 0).val) (hk1 : (k 1).val = (y 1).val) :
    (iblk m c 0 t : Vec Ideal S512x64 .f32) y = (V m c main_v0 : S25088x64.Idx → EReal) k := by
  obtain ⟨e0, e1, -⟩ := idx_facts t
  unfold iblk
  rw [View.read_apply]
  show V m c main_v0 _ = V m c main_v0 _
  refine congrArg _ (funext fun a => Fin.ext ?_)
  match a with
  | ⟨0, _⟩ => show win0_0.index t (0 : Fin 2) * 512 + 1 * (y 0).val = (k 0).val; rw [e0, hk0]; omega
  | ⟨1, _⟩ => show win0_0.index t (1 : Fin 2) * 64 + 1 * (y 1).val = (k 1).val; rw [e1, hk1]; omega

/-- The weights block at every point is the whole weights array. -/
theorem wblock_eq (c : Dev nD) (t : Fin cfg0.N) :
    (iblk m c 1 t : Vec Ideal S64x128 .f32) = (V m c main_arg1 : S64x128.Idx → EReal) := by
  obtain ⟨-, -, e2, e3, -⟩ := idx_facts t
  funext y
  unfold iblk
  rw [View.read_apply]
  show V m c main_arg1 _ = V m c main_arg1 _
  refine congrArg _ (funext fun a => Fin.ext ?_)
  match a with
  | ⟨0, _⟩ => show win0_1.index t (0 : Fin 2) * 64 + 1 * (y 0).val = (y 0).val; rw [e2]; omega
  | ⟨1, _⟩ => show win0_1.index t (1 : Fin 2) * 128 + 1 * (y 1).val = (y 1).val; rw [e3]; omega

/-- The bias block at every point is the whole bias row. -/
theorem bblock_eq (c : Dev nD) (t : Fin cfg0.N) :
    (iblk m c 2 t : Vec Ideal S1x128 .f32) = (V m c main_v1 : S1x128.Idx → EReal) := by
  obtain ⟨-, -, -, -, e4, e5, -⟩ := idx_facts t
  funext y
  unfold iblk
  rw [View.read_apply]
  show V m c main_v1 _ = V m c main_v1 _
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- The layer of the arrays the region finds: the flattened input, the weights, the bias row. -/
abbrev G (c : Dev nD) : S25088x128.Idx → EReal :=
  rows (R := 25088) (V m c main_v0 : S25088x64.Idx → EReal) (V m c main_arg1 : S64x128.Idx → EReal) (V m c main_v1 : S1x128.Idx → EReal)

/-- What point `t` writes back is block `t` of the layer. -/
theorem flushed_eq (c : Dev nD) (t : Fin cfg0.N) :
    (dats m 0 c).flushed 3 t = ((cfg0.win 3).blk t).view.read (Elt Ideal) (G m c) := by
  obtain ⟨-, -, -, -, -, -, e6, e7⟩ := idx_facts t
  show (cfg0.win 3).cut (grid0.coords t) ((dats m 0 c).after 3 t) = _
  rw [after0_3]
  funext j
  show out0_3 (iblk m c 0 t) (iblk m c 1 t) (iblk m c 2 t) j = G m c (((cfg0.win 3).blk t).view.emb j)
  refine rows_of_block (iblk m c 0 t) (iblk m c 1 t) (iblk m c 2 t) (V m c main_v0) (V m c main_arg1) (V m c main_v1) t.val
    (fun y k h0 h1 => xblock_apply m c t y k h0 h1) (wblock_eq m c t) (bblock_eq m c t) j (((cfg0.win 3).blk t).view.emb j) ?_ ?_
  · show win0_3.index t (0 : Fin 2) * 512 + 1 * (j 0).val = 512 * t.val + (j 0).val; rw [e6]; omega
  · show win0_3.index t (1 : Fin 2) * 128 + 1 * (j 1).val = (j 1).val; rw [e7]; omega

/-- An index of the output array is in point `t`'s block iff each coordinate is in the block's range on its axis. -/
theorem mem_blk (t : Fin cfg0.N) (i : S25088x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v2).slice (win0_3.rect t)).set ↔ _
  rw [View.set_slice_whole, Rect.mem_set_unit]
  exact Iff.rfl

/-- The output array after the run is the layer of the arrays the region finds: row `r` is in the block of point `r / 512`. -/
theorem final (c : Dev nD) : (dats m 0 c).arrAt 3 cfg0.N = G m c :=
  (dats m 0 c).arrAt_eq_of_cover 3 (G m c) (fun t _ => flushed_eq m c t) (fun i => by
    have h0 : (i 0).val < 25088 := (i 0).isLt
    have h1 : (i 1).val < 128 := (i 1).isLt
    have hN : cfg0.N = 49 := N_0
    have ht : (i 0).val / 512 < cfg0.N := by rw [hN]; omega
    obtain ⟨-, -, -, -, -, -, e6, e7⟩ := idx_facts ⟨(i 0).val / 512, ht⟩
    refine ⟨⟨(i 0).val / 512, ht⟩, flush0_3 _, ?_⟩
    rw [mem_blk]
    intro a
    match a with
    | ⟨0, _⟩ =>
      show win0_3.index ⟨(i 0).val / 512, ht⟩ (0 : Fin 2) * 512 ≤ (i 0).val ∧ (i 0).val < win0_3.index ⟨(i 0).val / 512, ht⟩ (0 : Fin 2) * 512 + 512
      rw [e6]; show (i 0).val / 512 * 512 ≤ (i 0).val ∧ (i 0).val < (i 0).val / 512 * 512 + 512; omega
    | ⟨1, _⟩ =>
      show win0_3.index ⟨(i 0).val / 512, ht⟩ (1 : Fin 2) * 128 ≤ (i 1).val ∧ (i 1).val < win0_3.index ⟨(i 0).val / 512, ht⟩ (1 : Fin 2) * 128 + 128
      rw [e7]; omega)

end Cert.KernelIdeal.Arr

end
-- ==== Proof.KernelRun.lean ====
/-
  The kernel program's run, read: its result array is the layer of its three arguments.

  Before the pallas call the host flattens the input to [25088, 64] and the bias to one row [1, 128]; after it, the host
  reshapes the [25088, 128] output to [8, 3136, 128].  The output array after the region is the layer `L1.rows` of the
  flattened input, the weights and the bias row.  Read at (n, s, o), the final reshape reads that array at row
  `3136 n + s`, channel `o` (same row-major position); the flattened input at (3136 n + s, k) is the input's flattening
  to [8, 3136, 64] at (n, s, k) (same row-major position again); the bias row at (0, o) is the bias at `o`.
-/
import proofs.«105297_j12043088298091_2_alg».proof.Proof.Gen.KernelIdeal.Frame
import proofs.«105297_j12043088298091_2_alg».proof.Proof.ArrayValue
import proofs.«105297_j12043088298091_2_alg».proof.Proof.L1Spec
import proofs.«105297_j12043088298091_2_alg».proof.Proof.LibRank2Layout
import Idealize.ShloMosaic.Lib.Pipeline.Value
import Idealize.ShloMosaic.Lib.StableHlo.Run
import Idealize.ShloMosaic.Lib.ValueIdx

noncomputable section

namespace Cert.KernelIdeal.Run

open Cert.KernelIdeal Cert.KernelIdeal.Gen Idealize.ShloMosaic Idealize.ShloMosaic.TcCoe Idealize.SL.Sem Idealize.ShloMosaic.StableHlo
open Idealize.ShloMosaic.ValueIdx Cert.L1
open Idealize.ShloMosaic.Pipeline (Dat)

variable (m : (ℓ : Loc nD τ sig) → Buf (Elt Ideal) ℓ) (ρ : Dev nD → PrngReg)

/-- The region finds the flattened input: the argument's shape cast to [25088, 64]. -/
theorem V_input (c : Dev nD) : (V m c main_v0 : S25088x64.Idx → EReal)
    = shapeCast S25088x64 (m ((c : Thread nD τ).loc main_arg0) : S8x56x56x64.Idx → EReal) shapeCasts_S8x56x56x64_S25088x64 := by
  show StableHlo.after hostOps0 (fun b => m (c, b)) (Proc.devRef .tc main_v0) = _
  after_results
  rfl

/-- The region finds the bias as one row: the argument's shape cast to [1, 128]. -/
theorem V_bias (c : Dev nD) : (V m c main_v1 : S1x128.Idx → EReal)
    = shapeCast S1x128 (m ((c : Thread nD τ).loc main_arg2) : S128.Idx → EReal) shapeCasts_S128_S1x128 := by
  show StableHlo.after hostOps0 (fun b => m (c, b)) (Proc.devRef .tc main_v1) = _
  after_results
  rfl

/-- After the region the host reshapes the output array: the program's result is its shape cast to [8, 3136, 128]. -/
theorem tail_result (c : Dev nD) :
    Pipeline.afterTail₀ cfgs (dats m) 0 (V0 m) [hostOps1] c main_v3
      = shapeCast S8x3136x128 ((dats m 0 c).arrAt 3 cfg0.N : S25088x128.Idx → EReal) shapeCasts_S25088x128_S8x3136x128 := by
  unfold Pipeline.afterTail₀
  show StableHlo.after hostOps1 _ (Proc.devRef .tc main_v3) = _
  after_results
  rw [Pipeline.withArrays_arr spec0 launch0.win.arr_inj c _ _ 3]
  rfl

/-- The layer of the flattened arguments, reshaped, is the layer on the NHWC input. -/
theorem reshaped_rows (x : S8x56x56x64.Idx → EReal) (w : S64x128.Idx → EReal) (b : S128.Idx → EReal) :
    shapeCast S8x3136x128 (rows (R := 25088) (shapeCast S25088x64 x shapeCasts_S8x56x56x64_S25088x64) w (shapeCast S1x128 b shapeCasts_S128_S1x128))
      shapeCasts_S25088x128_S8x3136x128 = result x w b := by
  funext i
  obtain ⟨n, s, o, rfl⟩ : ∃ (n : Fin 8) (s : Fin 3136) (o : Fin 128), i = ix3 n s o := ⟨i 0, i 1, i 2, eq_ix3 i⟩
  have hn : n.val < 8 := n.isLt
  have hs : s.val < 3136 := s.isLt
  rw [shapeCast_apply _ shapeCasts_S25088x128_S8x3136x128 (ix3 n s o) (ix2 (⟨3136 * n.val + s.val, by omega⟩ : Fin 25088) o) (by
    rw [Shape.rowMajor_val_two, Shape.rowMajor_val_three]
    show (3136 * n.val + s.val) * 128 + o.val = (n.val * 3136 + s.val) * 128 + o.val
    omega)]
  rw [rows_ix2]
  unfold entry result
  refine congrArg₂ (· + ·) (Finset.sum_congr rfl fun k _ => ?_) ?_
  · refine congrArg (absDiff · (w (ix2 k o))) ?_
    refine shapeCast_eq_shapeCast x _ _ _ _ ?_
    rw [Shape.rowMajor_val_two, Shape.rowMajor_val_three]
    show (3136 * n.val + s.val) * 64 + k.val = (n.val * 3136 + s.val) * 64 + k.val
    omega
  · refine shapeCast_apply b shapeCasts_S128_S1x128 (ix2 (0 : Fin 1) o) (ix1 o) ?_
    rw [Shape.rowMajor_val_one, Shape.rowMajor_val_two]
    show o.val = 0 * 128 + o.val
    omega

/-- The kernel program's run: every weakly fair execution terminates with the result array at the layer of the
    arguments, the arguments unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
      rw [(h c).2 main_v3 (Pipeline.mem_restRefs_of main_v3 (by decide) (by decide)), tail_result, Arr.final]
      unfold Arr.G
      rw [V_input, V_bias, V_main_arg1]
      exact reshaped_rows _ _ _,
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c)⟩)
    (run_main m ρ)

end Cert.KernelIdeal.Run

end
-- ==== Proof.lean ====
/-
  An L1-distance layer: a Pallas kernel against its jnp reference, equal over the extended reals.

  Both programs compute, for an NHWC input x : [8, 56, 56, 64], weights w : [64, 128] and a bias b : [128],
      out[n, s, o] = Σ_{k < 64} |x'[n, s, k] − w[k, o]| + b[o],
  where x' is x with its two spatial axes flattened (s = 56 h + w').  The reference broadcasts x' and w to
  [8, 3136, 64, 128], subtracts, takes absolute values, sums over the channel axis from zero and adds the bias.  The
  kernel flattens x to rows [25088, 64] (row 3136 n + s), runs a grid of 49 blocks of 512 rows, in each block keeps a
  running sum over the 64 channels of |column k of the block − row k of w|, adds the bias row, and the host reshapes the
  [25088, 128] output to [8, 3136, 128].  On the extended reals addition is associative and commutative, so the running
  sum from zero in channel order is the sum over the channels; no other law is used and the finiteness of the inputs is
  never needed.

  The pieces: `L1.result` is the function above (L1Spec); the reference's result array is `L1.result` of its arguments,
  read off the generated run one host operation at a time (ReferenceValue); what a kernel block stores is the layer
  on the block, entry by entry (BlockValue); the blocks tile the output, so the output array is the layer of the flattened
  arguments (ArrayValue); through the host's reshapes that is `L1.result` again (KernelRun).  The three frames are the
  generated ones (the reference's is its generated run with the result dropped); the idealization rewrote nothing.
-/
import proofs.«105297_j12043088298091_2_alg».proof.Defs
import proofs.«105297_j12043088298091_2_alg».proof.Proof.Gen.Kernel
import proofs.«105297_j12043088298091_2_alg».proof.Proof.Gen.Kernel.Frame
import proofs.«105297_j12043088298091_2_alg».proof.Proof.Gen.KernelIdeal
import proofs.«105297_j12043088298091_2_alg».proof.Proof.Gen.KernelIdeal.Frame
import proofs.«105297_j12043088298091_2_alg».proof.Proof.Gen.ReferenceIdeal
import proofs.«105297_j12043088298091_2_alg».proof.Proof.Gen.ReferenceIdeal.Run
import proofs.«105297_j12043088298091_2_alg».proof.Proof.Gen.ReferenceIdeal.Read
import proofs.«105297_j12043088298091_2_alg».proof.Proof.Gen.Pre_finite_inputs
import proofs.«105297_j12043088298091_2_alg».proof.Proof.L1Spec
import proofs.«105297_j12043088298091_2_alg».proof.Proof.ReferenceValue
import proofs.«105297_j12043088298091_2_alg».proof.Proof.KernelRun

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the layer `L1.result` of those
    arguments in their result arrays. -/
theorem algebraic : Cert.algebraic_KernelIdeal_ReferenceIdeal := by
  intro m ρ m' ρ' _ hagree
  refine ⟨fun c => Cert.L1.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Hand.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
